-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S512 : Shape := ⟨1, ![512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S262144x512 .f32) (main_arg1 : FVec F S512 .f32) (main_arg2 : FVec F S512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S262144x512 : Shape := ⟨2, ![262144, 512]⟩
abbrev S512 : Shape := ⟨1, ![512]⟩
abbrev S1x512 : Shape := ⟨2, ![1, 512]⟩
abbrev S4096x512 : Shape := ⟨2, ![4096, 512]⟩

abbrev nBuf : Space → Nat
  | .hbm => 6
  | .vmem => 6
  | .smem => 0
  | _ => 0

abbrev bufTy : (tb : Table) → Fin (tcTables nBuf tb) → BufTy
  | .hbm, ⟨0, _⟩ => ⟨S262144x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S262144x512, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S262144x512.size a
  hwx0_3 : ∀ i : grid0.Coords, EltTy.bits .f32 = 32 ∨ (Rect.block (s := S262144x512) S4096x512.size (cc0_transform_3 i) (hinb0_3 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S262144x512 : Shape := ⟨2, ![262144, 512]⟩
abbrev S512 : Shape := ⟨1, ![512]⟩
abbrev S1x512 : Shape := ⟨2, ![1, 512]⟩

abbrev nBuf : Space → Nat
  | .hbm => 9
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S262144x512, .f32⟩
  | .hbm, ⟨5, _⟩ => ⟨S262144x512, .f32⟩
  | .hbm, ⟨6, _⟩ => ⟨S1x512, .f32⟩
  | .hbm, ⟨7, _⟩ => ⟨S262144x512, .f32⟩
  | .hbm, ⟨8, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)

variable [Facts₀]

class Facts : Prop extends Facts₀ where

variable [Facts]
-- ==== Proof.Affine.lean ====
/-
  What both programs compute. A matrix `x` of 262144 rows and 512 columns is scaled column by column by a
  vector `a` of 512 entries and shifted column by column by a vector `b`:

      out[r, k] = x[r, k] · a[k] + b[k].

  The function is stated once, for any float values `F`: one product and one sum per entry. No law of the
  arithmetic of the extended reals is used anywhere in this certificate. At every entry the two programs form
  the same product and the same sum of the same three numbers; they differ only in how the two vectors are laid
  along the rows (a one-row matrix repeated down the rows in the one, a vector repeated along axis 1 in the
  other) and in how the rows are cut into blocks. So the equality holds at the infinities too, and the
  precondition (finite inputs) is never opened.
-/
import Idealize.ShloMosaic.PureOps.Ideal
import Idealize.ShloMosaic.Lib.ValueIdx
import Idealize.ShloMosaic.Lib.Pipeline.Value

noncomputable section

namespace Cert.Affine

open Idealize.ShloMosaic Idealize.ShloMosaic.ValueIdx

/-- The matrix's shape, -/
abbrev Mat : Shape := ⟨2, ![262144, 512]⟩
/-- a vector's, -/
abbrev Lane : Shape := ⟨1, ![512]⟩
/-- and a vector's when it is laid as a matrix of one row. -/
abbrev Row : Shape := ⟨2, ![1, 512]⟩

variable {F : FTy → Type} [FloatOps F]

/-- The vector entry that the matrix entry `i = (r, k)` meets: entry `k`. -/
abbrev col (i : Mat.Idx) : Lane.Idx := ix1 (i 1)

/-- `out[r, k] = x[r, k] · a[k] + b[k]`. -/
def scaleShift (x : Mat.Idx → F .f32) (a b : Lane.Idx → F .f32) : Mat.Idx → F .f32 :=
  fun i => FloatOps.addf (FloatOps.mulf (x i) (a (col i))) (b (col i))

/-- A vector laid as a matrix of one row keeps its entries in order: the row's entry `(0, k)` is the vector's
    entry `k` (both sit at position `k` when the entries are counted row by row). -/
theorem row_apply {α : Type} (a : Lane.Idx → α) (h : Lane.ShapeCasts Row) (k : Row.Idx) :
    shapeCast Row a h k = a (ix1 (k 1)) := by
  refine shapeCast_apply a h k (ix1 (k 1)) ?_
  rw [Shape.rowMajor_val_one, Shape.rowMajor_val_two]
  have h0 : (k 0).val < 1 := idx2_lt0 k
  show (k 1).val = (k 0).val * 512 + (k 1).val
  omega

end Cert.Affine

end
-- ==== Proof.RefAffine.lean ====
/-
  The reference, entry by entry. It repeats each vector along axis 1 (first as a one-row matrix, then down the
  262144 rows), multiplies the matrix by the first repeated vector and adds the second. Read at the entry
  `(r, k)`, each repeated vector gives the vector's entry `k`, so the result is `x[r, k] · a[k] + b[k]`.
-/
import proofs.«136517_j30021821399532_2_alg».proof.Proof.Gen.ReferenceIdeal.Read
import proofs.«136517_j30021821399532_2_alg».proof.Proof.Affine

noncomputable section

namespace Cert.ReferenceIdeal.RefValue

open Cert.ReferenceIdeal Cert.ReferenceIdeal.Read Cert.Affine Idealize.ShloMosaic Idealize.ShloMosaic.ValueIdx

variable {F : FTy → Type} [FloatOps F]

/-- Through the two repetitions of the scaling vector, the entry `(r, k)` reads the vector's entry `k`. -/
theorem scale_idx (i : S262144x512.Idx) : idx_main_v0 (idx_main_v1 i) = col i :=
  funext fun a => by match a with | ⟨0, _⟩ => rfl

/-- Through the two repetitions of the shifting vector, the entry `(r, k)` reads the vector's entry `k`. -/
theorem shift_idx (i : S262144x512.Idx) : idx_main_v3 (idx_main_v4 i) = col i :=
  funext fun a => by match a with | ⟨0, _⟩ => rfl

/-- The reference's result is `x[r, k] · a[k] + b[k]` at every entry. -/
theorem result_eq (x : (⟨S262144x512, .f32⟩ : BufTy).Contents (Elt F)) (a b : (⟨S512, .f32⟩ : BufTy).Contents (Elt F)) :
    val_main_v5 (F := F) x a b = scaleShift x a b := by
  funext i
  rw [val_main_v5_apply, val_main_v2_apply, val_main_v1_apply, val_main_v0_apply, val_main_v4_apply,
    val_main_v3_apply, scale_idx, shift_idx]
  rfl

end Cert.ReferenceIdeal.RefValue

end
-- ==== Proof.KernelBlock.lean ====
/-
  The kernel, one grid point at a time. The 262144 rows are cut into 64 blocks of 4096 rows; at point `t` the
  body loads block `t` of the matrix and the two vectors (each laid as a matrix of one row, the same block at
  every point), repeats each one-row matrix down the 4096 rows, multiplies, adds, and stores the whole block.
  So what point `t` writes back is block `t` of `x[r, k] · a[k] + b[k]`.
-/
import proofs.«136517_j30021821399532_2_alg».proof.Proof.Gen.KernelIdeal.Value
import proofs.«136517_j30021821399532_2_alg».proof.Proof.Affine
import Idealize.ShloMosaic.Lib.StableHlo.Run

noncomputable section

namespace Cert.KernelIdeal.BlockValue

open Cert.KernelIdeal Cert.KernelIdeal.Gen Cert.Affine Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ)

theorem zero_off : (![0, 0] : Fin 2 → Nat) = fun _ => 0 := funext fun a => by fin_cases a <;> rfl

/-- The body's loads and its one store go through whole blocks, so what it leaves in the output block is, entry
    by entry, the product and sum of what it loaded: the block's entry `(r, k)` is
    `x0[r, k] · x1[0, k] + x2[0, k]`. -/
theorem body_eq (x0 : Vec F S4096x512 .f32) (x1 x2 : Vec F S1x512 .f32) :
    out0_3 x0 x1 x2 = Value.E3 x0 x1 x2 := by
  funext y
  unfold out0_3
  simp only [View.ld_unit_zero (S := S4096x512) zero_off, View.ld_unit_zero (S := S1x512) zero_off]
  exact Value.canon3_eq x0 x1 x2 y

/-- Before the kernel is launched the scaling vector is laid as a matrix of one row. -/
theorem scale_row (c : Dev nD) :
    (V m c main_v0 : S1x512.Idx → Elt F .f32)
      = shapeCast S1x512 (m ((c : Thread nD τ).loc main_arg1)) shapeCasts_S512_S1x512 := by
  dsimp only [V, hostOps0]; after_results; rfl

/-- And so is the shifting vector. -/
theorem shift_row (c : Dev nD) :
    (V m c main_v1 : S1x512.Idx → Elt F .f32)
      = shapeCast S1x512 (m ((c : Thread nD τ).loc main_arg2)) shapeCasts_S512_S1x512 := by
  dsimp only [V, hostOps0]; after_results; rfl

/-- Where the blocks sit, decided once over the 64 grid points: the matrix's block and the output's block at
    point `t` are both block `t` of the rows (and the only block of the columns); the two one-row matrices
    are one block each, the same at every point. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `x[r, k] · a[k] + b[k]` of the argument arrays. -/
theorem flushed_eq (c : Dev nD) (t : Fin cfg0.N) :
    (dats m 0 c).flushed 3 t = ((cfg0.win 3).blk t).view.read (Elt F)
      (scaleShift (m ((c : Thread nD τ).loc main_arg0)) (m ((c : Thread nD τ).loc main_arg1))
        (m ((c : Thread nD τ).loc main_arg2))) := by
  rw [Value.flushed3, body_eq]
  obtain ⟨e00, e01, e10, e11, e20, e21, e30, e31⟩ := idx_facts t
  funext j
  show FloatOps.addf (FloatOps.mulf (V m c main_arg0 (((cfg0.win 0).blk t).view.emb (Value.ix3_0 j)))
        (V m c main_v0 (((cfg0.win 1).blk t).view.emb (Value.ix3_1 j))))
        (V m c main_v1 (((cfg0.win 2).blk t).view.emb (Value.ix3_2 j)))
      = FloatOps.addf (FloatOps.mulf (m ((c : Thread nD τ).loc main_arg0) (((cfg0.win 3).blk t).view.emb j))
        (m ((c : Thread nD τ).loc main_arg1) (col (((cfg0.win 3).blk t).view.emb j))))
        (m ((c : Thread nD τ).loc main_arg2) (col (((cfg0.win 3).blk t).view.emb j)))
  rw [V_main_arg0, scale_row, shift_row, row_apply, row_apply]
  refine congrArg₂ FloatOps.addf (congrArg₂ FloatOps.mulf (congrArg _ ?_) (congrArg _ ?_)) (congrArg _ ?_)
  · -- the matrix's block and the output's block at point `t` are the same rows and columns
    funext a; apply Fin.ext
    match a with
    | ⟨0, _⟩ =>
      show win0_0.index t (0 : Fin 2) * 4096 + 1 * (j 0).val = win0_3.index t (0 : Fin 2) * 4096 + 1 * (j 0).val
      omega
    | ⟨1, _⟩ =>
      show win0_0.index t (1 : Fin 2) * 512 + 1 * (j 1).val = win0_3.index t (1 : Fin 2) * 512 + 1 * (j 1).val
      omega
  · -- the scaling row's entry under column `k` of the block is the vector's entry `k`
    funext a; apply Fin.ext
    match a with
    | ⟨0, _⟩ =>
      show win0_1.index t (1 : Fin 2) * 512 + 1 * (j 1).val = win0_3.index t (1 : Fin 2) * 512 + 1 * (j 1).val
      omega
  · -- and so is the shifting row's
    funext a; apply Fin.ext
    match a with
    | ⟨0, _⟩ =>
      show win0_2.index t (1 : Fin 2) * 512 + 1 * (j 1).val = win0_3.index t (1 : Fin 2) * 512 + 1 * (j 1).val
      omega

end Cert.KernelIdeal.BlockValue

end
-- ==== Proof.KernelArray.lean ====
/-
  The kernel's whole result. Point `t` writes back rows `4096·t … 4096·t + 4095`, all 512 columns; row `r` is
  therefore written by point `r / 4096`, and the 64 points together write every entry of the result. Each writes
  its block of `x[r, k] · a[k] + b[k]`, so after the run the result array is that function of the argument
  arrays (what the result's buffer held before the launch is overwritten everywhere and plays no part).
-/
import proofs.«136517_j30021821399532_2_alg».proof.Proof.KernelBlock

noncomputable section

namespace Cert.KernelIdeal.ArrayValue

open Cert.KernelIdeal Cert.KernelIdeal.Gen Cert.Affine Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- An entry of the result is in point `t`'s block iff each of its coordinates is in the block's range. -/
theorem mem_blk (t : Fin cfg0.N) (i : S262144x512.Idx) :
    i ∈ ((cfg0.win 3).blk t).view.set ↔ ∀ a : Fin 2, win0_3.index t a * S4096x512.size a ≤ (i a).val
      ∧ (i a).val < win0_3.index t a * S4096x512.size a + S4096x512.size a := by
  show i ∈ ((View.whole main_v2).slice (win0_3.rect t)).set ↔ _
  rw [View.set_slice_whole, Rect.mem_set_unit]
  exact Iff.rfl

/-- Every entry `(r, k)` of the result is written back by some point: point `r / 4096`. -/
theorem cover (i : S262144x512.Idx) :
    ∃ t : Fin cfg0.N, (cfg0.win 3).flush t = true ∧ i ∈ ((cfg0.win 3).blk t).view.set := by
  have hi0 : (i 0).val < 262144 := (i 0).isLt
  have hi1 : (i 1).val < 512 := (i 1).isLt
  obtain ⟨t, ht⟩ : ∃ t : Fin cfg0.N, t.val = (i 0).val / 4096 :=
    ⟨⟨(i 0).val / 4096, lt_of_lt_of_eq (by omega) N_0.symm⟩, rfl⟩
  obtain ⟨-, -, -, -, -, -, e30, e31⟩ := BlockValue.idx_facts t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 512 ≤ (i 1).val ∧ (i 1).val < win0_3.index t (1 : Fin 2) * 512 + 512
    omega

/-- THE RESULT ARRAY after the run is `x[r, k] · a[k] + b[k]` of the argument arrays. -/
theorem final (c : Dev nD) :
    (dats m 0 c).arrAt 3 cfg0.N
      = scaleShift (m ((c : Thread nD τ).loc main_arg0)) (m ((c : Thread nD τ).loc main_arg1))
          (m ((c : Thread nD τ).loc main_arg2)) :=
  (dats m 0 c).arrAt_eq_of_cover 3 _ (fun t _ => BlockValue.flushed_eq m c t) cover

/-- The kernel's run: every weakly fair execution terminates with the result at that function of the arguments,
    and the arguments unchanged. -/
theorem run : θ_run defs (onTc (τ := τ) (main (F := F))) ⟨m, fun _ => 0, ρ⟩ fun r => ∀ c : Dev nD,
      r.2.mem ((c : Thread nD τ).loc main_v2)
        = scaleShift (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  A matrix `x` of 262144 rows and 512 columns, scaled column by column by a vector `a` and shifted column by
  column by a vector `b`:  out[r, k] = x[r, k] · a[k] + b[k].

  The kernel lays each vector as a matrix of one row, walks the rows in 64 blocks of 4096, and at each block
  repeats the two rows down the block, multiplies and adds. The reference repeats each vector along axis 1 over
  the whole matrix, multiplies and adds. Entry by entry both form the same product and the same sum of the same
  three numbers, so the two results are equal as extended reals with no appeal to any law of arithmetic; the
  finiteness of the inputs is not used.

  * Proof/Affine.lean      — the function `scaleShift`, and a vector laid as one row read at an entry;
  * Proof/RefAffine.lean   — the reference's result is `scaleShift` of its arguments;
  * Proof/KernelBlock.lean — what the kernel writes back at grid point `t` is block `t` of `scaleShift`;
  * Proof/KernelArray.lean — the 64 blocks cover the result, so the kernel's result is `scaleShift`.

  The three programs' termination and the preservation of their arguments are the generated frames (the
  reference's being its generated run with the result dropped); the idealized kernel is the kernel's own text
  read over the extended reals, no operation rewritten, so there is nothing to preserve.
-/
import proofs.«136517_j30021821399532_2_alg».proof.Defs
import proofs.«136517_j30021821399532_2_alg».proof.Proof.Gen.Kernel
import proofs.«136517_j30021821399532_2_alg».proof.Proof.Gen.Kernel.Skeleton
import proofs.«136517_j30021821399532_2_alg».proof.Proof.Gen.Kernel.Launch
import proofs.«136517_j30021821399532_2_alg».proof.Proof.Gen.Kernel.Points
import proofs.«136517_j30021821399532_2_alg».proof.Proof.Gen.Kernel.Frame
import proofs.«136517_j30021821399532_2_alg».proof.Proof.Gen.KernelIdeal
import proofs.«136517_j30021821399532_2_alg».proof.Proof.Gen.KernelIdeal.Skeleton
import proofs.«136517_j30021821399532_2_alg».proof.Proof.Gen.KernelIdeal.Launch
import proofs.«136517_j30021821399532_2_alg».proof.Proof.Gen.KernelIdeal.Points
import proofs.«136517_j30021821399532_2_alg».proof.Proof.Gen.KernelIdeal.Frame
import proofs.«136517_j30021821399532_2_alg».proof.Proof.Gen.ReferenceIdeal
import proofs.«136517_j30021821399532_2_alg».proof.Proof.Gen.Pre_finite_inputs
import proofs.«136517_j30021821399532_2_alg».proof.Proof.Gen.KernelIdeal.Value
import proofs.«136517_j30021821399532_2_alg».proof.Proof.Gen.ReferenceIdeal.Run
import proofs.«136517_j30021821399532_2_alg».proof.Proof.Gen.ReferenceIdeal.Read
import proofs.«136517_j30021821399532_2_alg».proof.Proof.Affine
import proofs.«136517_j30021821399532_2_alg».proof.Proof.RefAffine
import proofs.«136517_j30021821399532_2_alg».proof.Proof.KernelBlock
import proofs.«136517_j30021821399532_2_alg».proof.Proof.KernelArray
import Idealize.ShloMosaic.Adequacy
import Idealize.ShloMosaic.Init

noncomputable section

namespace Cert.Proof

open Idealize.ShloMosaic Idealize.SL.Sem

/-- The kernel as printed terminates and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From arguments that agree, the kernel's result is `x[r, k] · a[k] + b[k]` of them (the 64 blocks it writes
    back cover the result), and the reference's result is the same function of the same arguments. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
